-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩
abbrev S1x1 : Shape := ⟨2, ![1, 1]⟩

abbrev nBuf : Space → Nat
  | .hbm => 59
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x128, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .bf16⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S2000x128, .bf16⟩
  | .local _ .vmem, ⟨3, _⟩ => ⟨S2000x128, .bf16⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S2000x128, .bf16⟩
  | .local _ .vmem, ⟨14, _⟩ => ⟨S2000x128, .bf16⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128x1, .f32⟩
  | .local _ .vmem, ⟨21, _⟩ => ⟨S1, .f32⟩
  | .local _ .vmem, ⟨22, _⟩ => ⟨S2000x1, .f32⟩
  | .local _ .vmem, ⟨23, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .f32 = 32 ∨ (Rect.block (s := S128x1) S128x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S50000x1.size a
  hwx1_8 : ∀ i : grid1.Coords, EltTy.bits .f32 = 32 ∨ (Rect.block (s := S50000x1) S2000x1.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S2000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x1, .f32⟩
  | .hbm, ⟨80, _⟩ => ⟨S1x1, .f32⟩
  | .hbm, ⟨81, _⟩ => ⟨S50000x1, .f32⟩
  | .hbm, ⟨82, _⟩ => ⟨S50000x1, .f32⟩
  | .hbm, ⟨83, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run with its result named.

  The program is five stretches in order: host operations, the first launch, host operations, the second launch, one
  last host operation.  The contents of every unscoped buffer at each boundary are a fold through them (`W0` … `W5` of
  the generated frame module, which also supplies the stretches as segments, each launch's proof data, and the fact
  that no stretch writes an argument).  The launch theorem for a list of segments asks the certificate for: the launch
  element, that consecutive thread states chain, the first thread state from what the launch deals, and a reading of
  the last thread state against a final memory.  The last thread state holds every unscoped buffer at `W5`, so the
  result buffer, like every argument, ends at `W5` of itself.
-/
import proofs.«123700_j62861141344333_2_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipelines' staging cells and launch tokens. -/
abbrev u₀ : UR sig nD τ := initOf (Pipeline.cells cfgs cellOf_inj) (Pipeline.launchToks cfgs cellOf_inj)

/-- The first thread state: every unscoped buffer at the launch contents, the generator register and nothing owed. -/
abbrev T₀ (c : Dev nD) : sProp 𝕄 :=
  iprop(StableHlo.held (c : Thread nD τ) (Pipeline.ucRefs τ sig) (W0 m ρ c) ∗ R c)

/-- Every unscoped buffer of core `c` holds the last boundary's contents. -/
abbrev AtW5 (c : Dev nD) (s : MemSt nD τ sig (Elt F)) : Prop :=
  ∀ b ∈ Pipeline.ucRefs τ sig, s.mem (((c : Thread nD τ)).1, b) = W5 m ρ c b

/-- The launch element is the pipeline library's, and no core needs a ghost resource of its own. -/
theorem launch_elem :
    (ownU (u₀ : UR sig nD τ) : sProp 𝕄) ⊢ |={Set.univ}=> iprop(BI.own (emb₁ (u₀ : UR sig nD τ)) ∗ bigSep Finset.univ fun _ : Dev nD => (BI.emp : sProp 𝕄)) := by
  rw [BI.bigSep_emp_const]
  iintro H
  imodintro
  isplitl [H]
  · iapply (show (ownU (u₀ : UR sig nD τ) : sProp 𝕄) ⊢ BI.own (emb₁ (u₀ : UR sig nD τ)) from .rfl)
    iexact H
  · iempintro

/-- The thread states chain: each stretch is entered from the contents the previous one leaves, and after the last
    host operation the buffers are at `W5` with the generator register, beside nothing owed. -/
theorem chains : Pipeline.Seg.Chains (T₀ m ρ) (segs m ρ)
    fun c => iprop(Tₙ m ρ c ∗ ∃ W, owes (c : Thread nD τ) (0 : CellTallies nD τ sig Unit) W) := by
  refine ⟨fun _ => .rfl, fun _ => .rfl, fun _ => .rfl, fun _ => .rfl, fun _ => .rfl, fun c => ?_⟩
  dsimp only [Pipeline.Seg.post, hseg, Pipeline.HostSeg.ofOps]
  iintro ⟨Hbufs, Hreg, Howes⟩
  isplitr [Howes]
  · isplitl [Hbufs]
    · iexact Hbufs
    · iexact Hreg
  · iexact Howes

/-- The first thread state on every core, from what the launch deals each core. -/
theorem first_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ |={Set.univ}=> bigSep Finset.univ (T₀ m ρ) := by
  refine Pipeline.initEach L lv fun c => ?_
  have hheld : unscopedBufs c (fun b => m ((c : Thread nD τ).loc b))
      = (StableHlo.held (c : Thread nD τ) (Pipeline.ucRefs τ sig) (W0 m ρ c) : sProp 𝕄) := Pipeline.unscopedBufs_held c (W0 m ρ c)
  rw [hheld]
  iintro ⟨⟨Hbufs, -, Howes, -, Hreg, -⟩, -⟩
  imodintro
  isplitl [Hbufs]
  · iexact Hbufs
  isplitl [Hreg]
  · iexists _; iexact Hreg
  · iexists ∅; iexact Howes

/-- The last thread state read against a final memory: every unscoped buffer is at `W5`. -/
theorem last_state (c : Dev nD) (s' : Phys nD τ sig (Elt F)) :
    iprop(Tₙ m ρ c ∗ SI s') ⊢ |={Set.univ}=> iprop(⌜AtW5 m ρ c s'.mem⌝ ∗ SI s') := by
  iintro ⟨⟨Hbufs, -⟩, Hsi⟩
  unfold StableHlo.held
  imodintro
  iapply (pointsTo_read_all (Pipeline.ucRefs τ sig) (fun b => (((c : Thread nD τ)).1, b)) (W5 m ρ c) s')
  isplitl [Hbufs]
  · iexact Hbufs
  · iexact Hsi

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v38) = W5 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := u₀) (hu₀ := launch_elem)
    (T₀ := T₀ m ρ) (Tₙ := Tₙ m ρ) (hch := chains m ρ) (hinit := first_state m ρ)
    (QY := AtW5 m ρ) (hfin := last_state m ρ)
    (hQ := fun s hs c => ⟨hs c _ (mem_uc main_v38 (by decide)),
      (hs c _ (mem_uc main_arg0 (by decide))).trans (W5_main_arg0 m ρ c),
      (hs c _ (mem_uc main_arg1 (by decide))).trans (W5_main_arg1 m ρ c),
      (hs c _ (mem_uc main_arg2 (by decide))).trans (W5_main_arg2 m ρ c),
      (hs c _ (mem_uc main_arg3 (by decide))).trans (W5_main_arg3 m ρ c),
      (hs c _ (mem_uc main_arg4 (by decide))).trans (W5_main_arg4 m ρ c),
      (hs c _ (mem_uc main_arg5 (by decide))).trans (W5_main_arg5 m ρ c),
      (hs c _ (mem_uc main_arg6 (by decide))).trans (W5_main_arg6 m ρ c),
      (hs c _ (mem_uc main_arg7 (by decide))).trans (W5_main_arg7 m ρ c),
      (hs c _ (mem_uc main_arg8 (by decide))).trans (W5_main_arg8 m ρ c),
      (hs c _ (mem_uc main_arg9 (by decide))).trans (W5_main_arg9 m ρ c)⟩)

end Cert.Sage.KernelRun

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«123700_j62861141344333_2_alg».proof.Proof.LibDense
import proofs.«123700_j62861141344333_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«123700_j62861141344333_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibSageLayer.lean ====
/-
  Two mean-aggregating graph layers and a linear head, on the extended reals, at any extents.

  A layer takes, for every node (a row), the sum `a` of its in-neighbours' feature rows, the node's own feature row
  `x`, and a per-node factor `s` (the reciprocal of the in-degree, at least one).  Its pre-activation is
  `(a scaled row by row by s) · wl + x · wr`; the hidden layer adds a one-row bias and rectifies, the output layer adds
  its bias, multiplies by the head's weights and adds the head's bias.  Every entry of a layer's result depends on the
  node's own rows of `a`, `x` and `s` only, which is what lets a block of rows be computed from a block of rows.

  The reference divides the aggregate by the degree where the kernel multiplies by its reciprocal: on the extended reals
  `a / c = a · c⁻¹` and `1 / c = c⁻¹` whenever `c ≠ 0`, and a degree clamped below by one is never zero, so the two
  agree at every extended real `a`, infinite ones included.
-/
import proofs.«123700_j62861141344333_2_alg».proof.Proof.LibRowScale
import proofs.«123700_j62861141344333_2_alg».proof.Proof.LibBiasRow
import Idealize.ShloMosaic.Lib.IdealHost

noncomputable section

open scoped BigOperators

namespace Cert.Sage

open Idealize.ShloMosaic Idealize.ShloMosaic.ValueIdx Cert.Dense Cert.RowScale Cert.BiasRow

/-- The pre-activation: the row-scaled aggregate times `wl` plus the self term times `wr`. -/
def pre {M K N : ℕ} (a x : Mat M K) (s : Mat M 1) (wl wr : Mat K N) : Mat M N :=
  fun i => mm (scaleRows a s) wl i + mm x wr i

/-- The hidden layer: the pre-activation plus a one-row bias, rectified. -/
def hidden {M K N : ℕ} (a x : Mat M K) (s : Mat M 1) (wl wr : Mat K N) (b : Mat 1 N) : Mat M N :=
  reluBias (pre a x s wl wr) b

/-- The output layer followed by the linear head. -/
def head {M K N P : ℕ} (a h : Mat M K) (s : Mat M 1) (wl wr : Mat K N) (b : Mat 1 N) (wfc : Mat N P) (bfc : Mat 1 P) :
    Mat M P :=
  addRow (mm (addRow (pre a h s wl wr) b) wfc) bfc

/-- A row of the pre-activation depends on the same row of the aggregate, of the features and of the factor. -/
theorem pre_rows {M M' K N : ℕ} (a x : Mat M K) (s : Mat M 1) (a' x' : Mat M' K) (s' : Mat M' 1) (wl wr : Mat K N)
    (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    pre a' x' s' wl wr (ix2 p' q) = pre a x s wl wr (ix2 p q) := by
  show mm (scaleRows a' s') wl (ix2 p' q) + mm x' wr (ix2 p' q) = mm (scaleRows a s) wl (ix2 p q) + mm x wr (ix2 p q)
  simp only [mm_apply, scaleRows_apply, ha, hx, hs]

theorem hidden_rows {M M' K N : ℕ} (a x : Mat M K) (s : Mat M 1) (a' x' : Mat M' K) (s' : Mat M' 1) (wl wr : Mat K N)
    (b : Mat 1 N) (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    hidden a' x' s' wl wr b (ix2 p' q) = hidden a x s wl wr b (ix2 p q) := by
  show max (pre a' x' s' wl wr (ix2 p' q) + b (ix2 (0 : Fin 1) q)) 0 = max (pre a x s wl wr (ix2 p q) + b (ix2 (0 : Fin 1) q)) 0
  rw [pre_rows a x s a' x' s' wl wr p' p q ha hx hs]

theorem head_rows {M M' K N P : ℕ} (a h : Mat M K) (s : Mat M 1) (a' h' : Mat M' K) (s' : Mat M' 1) (wl wr : Mat K N)
    (b : Mat 1 N) (wfc : Mat N P) (bfc : Mat 1 P) (p' : Fin M') (p : Fin M) (r : Fin P)
    (ha : ∀ k : Fin K, a' (ix2 p' k) = a (ix2 p k)) (hh : ∀ k : Fin K, h' (ix2 p' k) = h (ix2 p k))
    (hs : s' (ix2 p' (0 : Fin 1)) = s (ix2 p (0 : Fin 1))) :
    head a' h' s' wl wr b wfc bfc (ix2 p' r) = head a h s wl wr b wfc bfc (ix2 p r) := by
  show mm (addRow (pre a' h' s' wl wr) b) wfc (ix2 p' r) + bfc (ix2 (0 : Fin 1) r)
    = mm (addRow (pre a h s wl wr) b) wfc (ix2 p r) + bfc (ix2 (0 : Fin 1) r)
  rw [mm_apply, mm_apply]
  refine congrArg (· + bfc (ix2 (0 : Fin 1) r)) (Finset.sum_congr rfl fun k _ => ?_)
  rw [addRow_apply, addRow_apply, pre_rows a h s a' h' s' wl wr p' p k ha hh hs]

/-- Multiplying by the reciprocal is dividing, at a divisor that is not zero. -/
theorem mul_recip (a c : EReal) (hc : c ≠ 0) : a * Ideal.div 1 c = Ideal.div a c := by
  rw [Ideal.div, Ideal.div, if_neg hc, if_neg hc, one_mul]

/-- A quantity clamped below by one is not zero. -/
theorem max_one_ne_zero (x : EReal) : max x 1 ≠ 0 :=
  (lt_of_lt_of_le zero_lt_one (le_max_right x 1)).ne'

/-- The host's form of the mean: the aggregate divided by the degree vector broadcast to a column and along the rows is
    the aggregate's rows scaled by the column of reciprocals, when no degree is zero. -/
theorem hostDivRows {M N : ℕ} (G : FVec Ideal ⟨2, ![M, N]⟩ .f32) (d one : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hd : ∀ i, d i ≠ 0) (hone : ∀ i, one i = 1) :
    Host.divf (F := Ideal) G (broadcastInDim ⟨2, ![M, N]⟩ ![0, 1] h2 (broadcastInDim ⟨2, ![M, 1]⟩ ![0] h1 d))
      = scaleRows G (col (Host.divf (F := Ideal) one d)) := by
  funext i
  obtain ⟨p, q, rfl⟩ : ∃ (p : Fin M) (q : Fin N), i = ix2 p q := ⟨i 0, i 1, eq_ix2 i⟩
  show Ideal.div (G (ix2 p q)) (broadcastInDim ⟨2, ![M, N]⟩ ![0, 1] h2 (broadcastInDim ⟨2, ![M, 1]⟩ ![0] h1 d) (ix2 p q))
    = G (ix2 p q) * Ideal.div (one (ix1 p)) (d (ix1 p))
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 d (ix2 p (0 : Fin 1)) (ix1 p) (fun a => by
        match a with
        | ⟨0, _⟩ =>
          show p.val = if M = 1 then 0 else p.val
          split
          · have := p.isLt; omega
          · rfl),
    hone, mul_recip _ _ (hd _)]

end Cert.Sage

end
-- ==== Proof.Model.lean ====
/-
  The whole network as one function of the arguments.

  The edge list's first row holds the source nodes (a negative id counts from the end, as array indexing does), its
  second row the destination nodes.  `aggregate` gathers the source nodes' rows of a feature array and adds each into
  its destination node's row, from zero; `degree` adds a one per edge into its destination node, from zero, and clamps
  the count below by one; `recip` is the column of reciprocals of the clamped degrees.  The network is the hidden layer
  of the input features, then the output layer and head of the hidden features, both over the same aggregate operator
  and reciprocal column, with the one-column result read as a vector.
-/
import proofs.«123700_j62861141344333_2_alg».proof.Proof.Gen.KernelIdeal
import proofs.«123700_j62861141344333_2_alg».proof.Proof.LibSageLayer

noncomputable section

namespace Cert.Sage

open Idealize.ShloMosaic Idealize.ShloMosaic.ValueIdx Cert.Dense Cert.RowScale Cert.BiasRow
open Cert.KernelIdeal Cert.KernelIdeal.Gen

/-- The edge list as the programs hold it. -/
abbrev Edges : Type := (⟨S2x800000, .i32⟩ : BufTy).Contents (Elt Ideal)
/-- A one-column array of node ids, one per edge. -/
abbrev EdgeCol : Type := (⟨S800000x1, .i32⟩ : BufTy).Contents (Elt Ideal)

/-- Row `r` of the edge list as a vector. -/
def edgeRow0 (ei : Edges) : (⟨S800000, .i32⟩ : BufTy).Contents (Elt Ideal) :=
  shapeCast S800000 (extractStridedSlice S1x800000 ![0, 0] ei slices_S2x800000_S1x800000_0_0) shapeCasts_S1x800000_S800000
def edgeRow1 (ei : Edges) : (⟨S800000, .i32⟩ : BufTy).Contents (Elt Ideal) :=
  shapeCast S800000 (extractStridedSlice S1x800000 ![1, 0] ei slices_S2x800000_S1x800000_1_0) shapeCasts_S1x800000_S800000

/-- The source nodes, a negative id counted from the end, as a column. -/
def srcCol (ei : Edges) : EdgeCol :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 50000#32))) (edgeRow0 ei))

/-- The destination nodes as a column. -/
def dstCol (ei : Edges) : EdgeCol :=
  broadcastInDim S800000x1 ![0] bcast_S800000_S800000x1_0 (edgeRow1 ei)

/-- The sum, into each destination node's row, of its edges' source rows. -/
def aggregate (ei : Edges) (X : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstCol ei)
    (Host.gather gather_S50000x128_S800000x1_S800000x128_1_0_n_n_0_1_1128 X (srcCol ei))

/-- The in-degree of every node, clamped below by one. -/
def degree (ei : Edges) : FVec Ideal S50000 .f32 :=
  maximumf
    (Host.scatterAdd (F := Ideal) scatter_S50000_S800000x1_S800000_n_0_0_1
      (broadcastInDim S50000 ![] bcast_S_S50000 (constant (F := Ideal) S_ .f32 0x00000000#32)) (dstCol ei)
      (broadcastInDim S800000 ![] bcast_S_S800000 (constant (F := Ideal) S_ .f32 0x3F800000#32)))
    (broadcastInDim S50000 ![] bcast_S_S50000 (constant (F := Ideal) S_ .f32 0x3F800000#32))

/-- The reciprocals of the clamped degrees, as a vector. -/
def recipVec (ei : Edges) : FVec Ideal S50000 .f32 :=
  Host.divf (F := Ideal) (broadcastInDim S50000 ![] bcast_S_S50000 (constant (F := Ideal) S_ .f32 0x3F800000#32)) (degree ei)

/-- The reciprocals of the clamped degrees, as a column. -/
def recip (ei : Edges) : Mat 50000 1 := col (recipVec ei)

/-- The hidden features. -/
def hid (x : FVec Ideal S50000x128 .f32) (ei : Edges) (wl wr : FVec Ideal S128x128 .f32) (b : FVec Ideal S128 .f32) :
    Mat 50000 128 :=
  hidden (aggregate ei x) x (recip ei) wl wr (row b)

/-- The network's result. -/
def net (x : FVec Ideal S50000x128 .f32) (ei : Edges) (wl0 wr0 : FVec Ideal S128x128 .f32) (b0 : FVec Ideal S128 .f32)
    (wl1 wr1 : FVec Ideal S128x128 .f32) (b1 : FVec Ideal S128 .f32) (wfc : FVec Ideal S128x1 .f32) (bfc : FVec Ideal S1 .f32) :
    FVec Ideal S50000 .f32 :=
  shapeCast S50000
    (head (aggregate ei (hid x ei wl0 wr0 b0)) (hid x ei wl0 wr0 b0) (recip ei) wl1 wr1 (row b1) wfc (row bfc))
    shapeCasts_S50000x1_S50000

/-- A clamped degree is not zero. -/
theorem degree_ne_zero (ei : Edges) (i : S50000.Idx) : degree ei i ≠ 0 := by
  unfold degree
  rw [maximumf_apply, broadcastInDim_scalar_apply, constant_apply, Ideal.ofBits_one_f32]
  exact max_one_ne_zero _

end Cert.Sage

end
-- ==== Proof.HostStretch.lean ====
/-
  The host operations around the two launches, read back as the model's stages.

  Before the first launch the program slices the edge list into its two rows, counts the in-degrees (ones scattered
  and added by destination, from zero), clamps them below by one, takes reciprocals and lays them out as a column,
  narrows the features (the identity on the extended reals), normalises the source ids, gathers the source rows and
  scatters them, added, by destination.  Between the launches it gathers and scatters the hidden features the same way.
  After the second launch it reads the one-column result as a vector.  None of these operations writes an argument,
  the edge rows or the reciprocal column again, so those are found unchanged by the later stretches.
-/
import proofs.«123700_j62861141344333_2_alg».proof.Proof.Gen.KernelIdeal.Frame
import proofs.«123700_j62861141344333_2_alg».proof.Proof.Model

set_option maxRecDepth 16384
set_option maxHeartbeats 4000000

noncomputable section

namespace Cert.Sage.Stretch

open Idealize.ShloMosaic Idealize.ShloMosaic.TcCoe Idealize.ShloMosaic.ValueIdx Idealize.SL.Sem Idealize.ShloMosaic.StableHlo
open Cert.Dense Cert.RowScale Cert.BiasRow Cert.KernelIdeal Cert.KernelIdeal.Gen

variable (m : (ℓ : Loc nD τ sig) → Buf (Elt Ideal) ℓ) (ρ : Dev nD → PrngReg) (c : Dev nD)

/-! ### What the first launch finds -/

theorem W1_row0 : W1 m ρ c (Proc.devRef .tc main_v1) = edgeRow0 (m ((c.tc : Thread nD τ).loc main_arg1)) := by
  show StableHlo.after hostOps0 (W0 m ρ c) (Proc.devRef .tc main_v1) = _
  dsimp only [hostOps0]
  after_results_simp
  rfl

theorem W1_row1 : W1 m ρ c (Proc.devRef .tc main_v3) = edgeRow1 (m ((c.tc : Thread nD τ).loc main_arg1)) := by
  show StableHlo.after hostOps0 (W0 m ρ c) (Proc.devRef .tc main_v3) = _
  dsimp only [hostOps0]
  after_results_simp
  rfl

/-- The aggregate of the input features. -/
theorem V1_agg : V1 m ρ c main_v24 = aggregate (m ((c.tc : Thread nD τ).loc main_arg1)) (m ((c.tc : Thread nD τ).loc main_arg0)) := by
  show StableHlo.after hostOps0 (W0 m ρ c) (Proc.devRef .tc main_v24) = _
  dsimp only [hostOps0]
  after_results_simp
  rfl

/-- The narrowed features are the features. -/
theorem V1_x : (V1 m ρ c main_v13 : Mat 50000 128) = (m ((c.tc : Thread nD τ).loc main_arg0)) := by
  show StableHlo.after hostOps0 (W0 m ρ c) (Proc.devRef .tc main_v13) = _
  dsimp only [hostOps0]
  after_results_simp
  rfl

/-- The reciprocal column. -/
theorem W1_recip : (W1 m ρ c (Proc.devRef .tc main_v12) : Mat 50000 1) = recip (m ((c.tc : Thread nD τ).loc main_arg1)) := by
  show StableHlo.after hostOps0 (W0 m ρ c) (Proc.devRef .tc main_v12) = _
  dsimp only [hostOps0]
  after_results_simp
  exact shapeCast_col _ _

theorem V1_arg2 : V1 m ρ c main_arg2 = (m ((c.tc : Thread nD τ).loc main_arg2)) := by
  show StableHlo.after hostOps0 (W0 m ρ c) (Proc.devRef .tc main_arg2) = _
  dsimp only [hostOps0]
  after_results_simp

theorem V1_arg3 : V1 m ρ c main_arg3 = (m ((c.tc : Thread nD τ).loc main_arg3)) := by
  show StableHlo.after hostOps0 (W0 m ρ c) (Proc.devRef .tc main_arg3) = _
  dsimp only [hostOps0]
  after_results_simp

theorem V1_arg4 : V1 m ρ c main_arg4 = (m ((c.tc : Thread nD τ).loc main_arg4)) := by
  show StableHlo.after hostOps0 (W0 m ρ c) (Proc.devRef .tc main_arg4) = _
  dsimp only [hostOps0]
  after_results_simp

/-! ### What the second launch finds, given what the first left in its result array -/

theorem W2_row0 : W2 m ρ c (Proc.devRef .tc main_v1) = edgeRow0 (m ((c.tc : Thread nD τ).loc main_arg1)) :=
  (W2_of_ne m ρ c main_v1 (by decide)).trans (W1_row0 m ρ c)

theorem W2_row1 : W2 m ρ c (Proc.devRef .tc main_v3) = edgeRow1 (m ((c.tc : Thread nD τ).loc main_arg1)) :=
  (W2_of_ne m ρ c main_v3 (by decide)).trans (W1_row1 m ρ c)

/-- The aggregate of the hidden features. -/
theorem V3_agg : V3 m ρ c main_v36 = aggregate (m ((c.tc : Thread nD τ).loc main_arg1)) (W2 m ρ c (Proc.devRef .tc main_v25)) := by
  show StableHlo.after hostOps1 (W2 m ρ c) (Proc.devRef .tc main_v36) = _
  dsimp only [hostOps1]
  after_results_simp
  rw [W2_row0, W2_row1]
  rfl

/-- The hidden features are not written between the launches. -/
theorem V3_h : V3 m ρ c main_v25 = W2 m ρ c (Proc.devRef .tc main_v25) := by
  show StableHlo.after hostOps1 (W2 m ρ c) (Proc.devRef .tc main_v25) = _
  dsimp only [hostOps1]
  after_results_simp

/-- Nor is the reciprocal column. -/
theorem V3_recip : (V3 m ρ c main_v12 : Mat 50000 1) = recip (m ((c.tc : Thread nD τ).loc main_arg1)) := by
  have h : V3 m ρ c main_v12 = W2 m ρ c (Proc.devRef .tc main_v12) := by
    show StableHlo.after hostOps1 (W2 m ρ c) (Proc.devRef .tc main_v12) = _
    dsimp only [hostOps1]
    after_results_simp
  have h2 : W2 m ρ c (Proc.devRef .tc main_v12) = W1 m ρ c (Proc.devRef .tc main_v12) :=
    (W2_arr m ρ c 2).trans (((dat0 (V1 m ρ) c).arrAt_in 2 rfl _).trans (A_eq0 (V1 m ρ) c 2))
  exact h.trans (h2.trans (W1_recip m ρ c))

theorem W1_arg5 : W1 m ρ c (Proc.devRef .tc main_arg5) = (m ((c.tc : Thread nD τ).loc main_arg5)) := by
  show StableHlo.after hostOps0 (W0 m ρ c) (Proc.devRef .tc main_arg5) = _
  dsimp only [hostOps0]
  after_results_simp

theorem V3_arg5 : V3 m ρ c main_arg5 = (m ((c.tc : Thread nD τ).loc main_arg5)) := by
  have h : V3 m ρ c main_arg5 = W2 m ρ c (Proc.devRef .tc main_arg5) := by
    show StableHlo.after hostOps1 (W2 m ρ c) (Proc.devRef .tc main_arg5) = _
    dsimp only [hostOps1]
    after_results_simp
  exact h.trans ((W2_of_ne m ρ c main_arg5 (by decide)).trans (W1_arg5 m ρ c))

theorem W1_arg6 : W1 m ρ c (Proc.devRef .tc main_arg6) = (m ((c.tc : Thread nD τ).loc main_arg6)) := by
  show StableHlo.after hostOps0 (W0 m ρ c) (Proc.devRef .tc main_arg6) = _
  dsimp only [hostOps0]
  after_results_simp

theorem V3_arg6 : V3 m ρ c main_arg6 = (m ((c.tc : Thread nD τ).loc main_arg6)) := by
  have h : V3 m ρ c main_arg6 = W2 m ρ c (Proc.devRef .tc main_arg6) := by
    show StableHlo.after hostOps1 (W2 m ρ c) (Proc.devRef .tc main_arg6) = _
    dsimp only [hostOps1]
    after_results_simp
  exact h.trans ((W2_of_ne m ρ c main_arg6 (by decide)).trans (W1_arg6 m ρ c))

theorem W1_arg7 : W1 m ρ c (Proc.devRef .tc main_arg7) = (m ((c.tc : Thread nD τ).loc main_arg7)) := by
  show StableHlo.after hostOps0 (W0 m ρ c) (Proc.devRef .tc main_arg7) = _
  dsimp only [hostOps0]
  after_results_simp

theorem V3_arg7 : V3 m ρ c main_arg7 = (m ((c.tc : Thread nD τ).loc main_arg7)) := by
  have h : V3 m ρ c main_arg7 = W2 m ρ c (Proc.devRef .tc main_arg7) := by
    show StableHlo.after hostOps1 (W2 m ρ c) (Proc.devRef .tc main_arg7) = _
    dsimp only [hostOps1]
    after_results_simp
  exact h.trans ((W2_of_ne m ρ c main_arg7 (by decide)).trans (W1_arg7 m ρ c))

theorem W1_arg8 : W1 m ρ c (Proc.devRef .tc main_arg8) = (m ((c.tc : Thread nD τ).loc main_arg8)) := by
  show StableHlo.after hostOps0 (W0 m ρ c) (Proc.devRef .tc main_arg8) = _
  dsimp only [hostOps0]
  after_results_simp

theorem V3_arg8 : V3 m ρ c main_arg8 = (m ((c.tc : Thread nD τ).loc main_arg8)) := by
  have h : V3 m ρ c main_arg8 = W2 m ρ c (Proc.devRef .tc main_arg8) := by
    show StableHlo.after hostOps1 (W2 m ρ c) (Proc.devRef .tc main_arg8) = _
    dsimp only [hostOps1]
    after_results_simp
  exact h.trans ((W2_of_ne m ρ c main_arg8 (by decide)).trans (W1_arg8 m ρ c))

theorem W1_arg9 : W1 m ρ c (Proc.devRef .tc main_arg9) = (m ((c.tc : Thread nD τ).loc main_arg9)) := by
  show StableHlo.after hostOps0 (W0 m ρ c) (Proc.devRef .tc main_arg9) = _
  dsimp only [hostOps0]
  after_results_simp

theorem V3_arg9 : V3 m ρ c main_arg9 = (m ((c.tc : Thread nD τ).loc main_arg9)) := by
  have h : V3 m ρ c main_arg9 = W2 m ρ c (Proc.devRef .tc main_arg9) := by
    show StableHlo.after hostOps1 (W2 m ρ c) (Proc.devRef .tc main_arg9) = _
    dsimp only [hostOps1]
    after_results_simp
  exact h.trans ((W2_of_ne m ρ c main_arg9 (by decide)).trans (W1_arg9 m ρ c))

/-! ### The result -/

/-- The last host operation reads the second launch's one-column result as a vector. -/
theorem W5_result : W5 m ρ c (Proc.devRef .tc main_v38)
    = shapeCast S50000 (W4 m ρ c (Proc.devRef .tc main_v37) : Mat 50000 1) shapeCasts_S50000x1_S50000 := by
  show StableHlo.after hostOps2 (W4 m ρ c) (Proc.devRef .tc main_v38) = _
  dsimp only [hostOps2]
  after_results_simp
  rfl

end Cert.Sage.Stretch

end
-- ==== Proof.Payload.lean ====
/-
  The two kernel bodies as layers.

  The first body multiplies the aggregate's block by the per-row factor's column (broadcast along the rows), multiplies
  on the matrix unit by `wl` into a zero accumulator, adds the feature block times `wr`, adds the bias row and takes the
  maximum with zero: the hidden layer of the block.  The second body does the same without the rectification, then
  multiplies by the head's weights and adds the head's one-entry bias: the output layer and head of the block.  The
  changes of float format in between are the identity on the extended reals.
-/
import proofs.«123700_j62861141344333_2_alg».proof.Proof.Gen.KernelIdeal.Skeleton
import proofs.«123700_j62861141344333_2_alg».proof.Proof.LibSageLayer

noncomputable section

namespace Cert.Sage

open Idealize.ShloMosaic Idealize.ShloMosaic.ValueIdx Cert.Dense Cert.RowScale Cert.BiasRow
open Cert.KernelIdeal Cert.KernelIdeal.Gen

/-- The first body's stored value is the hidden layer of its loaded blocks. -/
theorem pay0_eq (a : FVec Ideal S2000x128 .f32) (s : FVec Ideal S2000x1 .f32) (x : FVec Ideal S2000x128 .bf16)
    (wl wr : FVec Ideal S128x128 .f32) (b : FVec Ideal S128 .f32) :
    k0_pay1 (F := Ideal) a s x wl wr b = hidden a x s wl wr (row b) := by
  unfold k0_pay1
  simp only [shapeCast_self]
  show maximumf (addf (addf
        (matmul dot_S2000x128_S128x128_S2000x128_1_0_0_1_n_n none (mulf a (broadcastTo S2000x128 s broadcasts_S2000x1_S2000x128)) wl
          (constant S2000x128 .f32 0x00000000#32))
        (matmul dot_S2000x128_S128x128_S2000x128_1_0_0_1_n_n none x wr (constant S2000x128 .f32 0x00000000#32)))
        (broadcastTo S2000x128 (shapeCast S1x128 b shapeCasts_S128_S1x128) broadcasts_S1x128_S2000x128))
      (broadcast S2000x128 (Scalar.ofBits (F := Ideal) .f32 0x00000000#32)) = _
  rw [vecScaleRows, matmul_zero_eq_mm _ rfl rfl rfl rfl rfl rfl, matmul_zero_eq_mm _ rfl rfl rfl rfl rfl rfl,
    shapeCast_row, vecReluBias]
  rfl

/-- The second body's stored value is the output layer and head of its loaded blocks. -/
theorem pay1_eq (a : FVec Ideal S2000x128 .f32) (s : FVec Ideal S2000x1 .f32) (h : FVec Ideal S2000x128 .bf16)
    (wl wr : FVec Ideal S128x128 .f32) (b : FVec Ideal S128 .f32) (wfc : FVec Ideal S128x1 .f32) (bfc : FVec Ideal S1 .f32) :
    k1_pay1 (F := Ideal) a s h wl wr b wfc bfc = head a h s wl wr (row b) wfc (row bfc) := by
  unfold k1_pay1
  simp only [shapeCast_self]
  show addf (matmul dot_S2000x128_S128x1_S2000x1_1_0_0_1_n_n none
        (addf (addf
          (matmul dot_S2000x128_S128x128_S2000x128_1_0_0_1_n_n none (mulf a (broadcastTo S2000x128 s broadcasts_S2000x1_S2000x128)) wl
            (constant S2000x128 .f32 0x00000000#32))
          (matmul dot_S2000x128_S128x128_S2000x128_1_0_0_1_n_n none h wr (constant S2000x128 .f32 0x00000000#32)))
          (broadcastTo S2000x128 (shapeCast S1x128 b shapeCasts_S128_S1x128) broadcasts_S1x128_S2000x128))
        wfc (constant S2000x1 .f32 0x00000000#32))
      (broadcastTo S2000x1 (shapeCast S1x1 bfc shapeCasts_S1_S1x1) broadcasts_S1x1_S2000x1) = _
  rw [vecScaleRows, matmul_zero_eq_mm _ rfl rfl rfl rfl rfl rfl, matmul_zero_eq_mm _ rfl rfl rfl rfl rfl rfl,
    matmul_zero_eq_mm _ rfl rfl rfl rfl rfl rfl, shapeCast_row, shapeCast_row, vecAddRow, vecAddRow]
  rfl

end Cert.Sage

end
-- ==== Proof.Region0.lean ====
/-
  The first launch: the hidden layer of every node, block by block.

  The grid has 25 points; point `t` works on the 2000 nodes `2000 t … 2000 t + 1999`.  It is handed rows `2000 t + p`
  of the aggregate, of the features and of the reciprocal column, and the whole of both weight arrays and of the bias,
  and writes back rows `2000 t + p` of the result.  A row of the hidden layer depends on the same row of its three
  row-indexed operands only, so what point `t` writes is block `t` of the hidden layer of the WHOLE arrays; the 25
  blocks tile the 50000 rows, so after the launch the result array is that hidden layer.
-/
import proofs.«123700_j62861141344333_2_alg».proof.Proof.Gen.KernelIdeal.Frame
import proofs.«123700_j62861141344333_2_alg».proof.Proof.Payload

set_option maxRecDepth 16384

noncomputable section

namespace Cert.Sage.Region0

open Idealize.ShloMosaic Idealize.ShloMosaic.TcCoe Idealize.ShloMosaic.ValueIdx Idealize.SL.Sem
open Idealize.ShloMosaic.Pipeline (Dat Cfg Window)
open Cert.Dense Cert.RowScale Cert.BiasRow Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-indexed inputs and the output sit at block row `t`, the weights and
    the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Every block row is some point's. -/
theorem idx_onto : ∀ q0 : Fin 25, ∃ t : Fin cfg0.N, win0_6.index t = ![q0.val, 0] :=
  (by decide +kernel : ∀ q0 : Fin 25, ∃ t : Fin grid0.N, win0_6.index t = ![q0.val, 0])

/-- The node whose row is row `p` of point `t`'s blocks. -/
def node (t : Fin cfg0.N) (p : Fin 2000) : Fin 50000 :=
  ⟨t.val * 2000 + p.val, by
    have h := t.isLt
    have hN : cfg0.N = 25 := N_0
    have hp := p.isLt
    omega⟩

/-- Row `p` of point `t`'s block of the aggregate is row `node t p` of the aggregate. -/
theorem read_agg (c : Dev nD) (t : Fin cfg0.N) (p : Fin 2000) (k : Fin 128) :
    iblk0 V c 0 t (ix2 p k) = (V c main_v24 : Mat 50000 128) (ix2 (node t p) k) := by
  obtain ⟨e0, e1, -⟩ := idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The same for the features. -/
theorem read_x (c : Dev nD) (t : Fin cfg0.N) (p : Fin 2000) (k : Fin 128) :
    iblk0 V c 1 t (ix2 p k) = (V c main_v13 : Mat 50000 128) (ix2 (node t p) k) := by
  obtain ⟨-, -, e0, e1, -⟩ := idx_facts t
  show V c (Pipeline.arrRef spec0 1) (((cfg0.win 1).blk t).view.emb (ix2 p k)) = _
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- The same for the reciprocal column. -/
theorem read_s (c : Dev nD) (t : Fin cfg0.N) (p : Fin 2000) :
    iblk0 V c 2 t (ix2 p (0 : Fin 1)) = (V c main_v12 : Mat 50000 1) (ix2 (node t p) (0 : Fin 1)) := by
  obtain ⟨-, -, -, -, e0, e1, -⟩ := idx_facts t
  show V c (Pipeline.arrRef spec0 2) (((cfg0.win 2).blk t).view.emb (ix2 p (0 : Fin 1))) = _
  refine congrArg _ (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

/-- The weight and bias windows are the whole arrays at every point. -/
theorem whole_wl (c : Dev nD) (t : Fin cfg0.N) : iblk0 V c 3 t = (V c main_arg2 : Mat 128 128) := by
  obtain ⟨-, -, -, -, -, -, e0, e1, -⟩ := idx_facts t
  funext j
  show V c (Pipeline.arrRef spec0 3) (((cfg0.win 3).blk t).view.emb j) = V c main_arg2 j
  refine congrArg _ (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem whole_wr (c : Dev nD) (t : Fin cfg0.N) : iblk0 V c 4 t = (V c main_arg3 : Mat 128 128) := by
  obtain ⟨-, -, -, -, -, -, -, -, e0, e1, -⟩ := idx_facts t
  funext j
  show V c (Pipeline.arrRef spec0 4) (((cfg0.win 4).blk t).view.emb j) = V c main_arg3 j
  refine congrArg _ (funext fun a => Fin.ext ?_)
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem whole_b (c : Dev nD) (t : Fin cfg0.N) : iblk0 V c 5 t = (V c main_arg4 : Row 128) := by
  obtain ⟨-, -, -, -, -, -, -, -, -, -, e0, -⟩ := idx_facts t
  funext j
  show V c (Pipeline.arrRef spec0 5) (((cfg0.win 5).blk t).view.emb j) = V c main_arg4 j
  refine congrArg _ (funext fun a => Fin.ext ?_)
  match a with
  | ⟨0, _⟩ => show win0_5.index t (0 : Fin 1) * 128 + 1 * (j 0).val = (j 0).val; rw [e0]; omega

/-- What point `t` writes back is block `t` of the hidden layer of the arrays as the launch finds them. -/
theorem flushed_eq (c : Dev nD) (t : Fin cfg0.N) :
    (dat0 V c).flushed 6 t = ((cfg0.win 6).blk t).view.read (Elt Ideal)
      (hidden (V c main_v24 : Mat 50000 128) (V c main_v13 : Mat 50000 128) (V c main_v12 : Mat 50000 1)
        (V c main_arg2 : Mat 128 128) (V c main_arg3 : Mat 128 128) (row (V c main_arg4 : Row 128))) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S2000x1) hz2,
    View.ld_unit_zero (S := S128x128) hz2, View.ld_unit_zero (S := S128) hz1]
  rw [pay0_eq, whole_wl V c t, whole_wr V c t, whole_b V c t]
  funext j
  obtain ⟨p, q, rfl⟩ : ∃ (p : Fin 2000) (q : Fin 128), j = ix2 p q := ⟨j 0, j 1, eq_ix2 j⟩
  obtain ⟨-, -, -, -, -, -, -, -, -, -, -, e0, e1⟩ := idx_facts t
  have hemb : ((cfg0.win 6).blk t).view.emb (ix2 p q) = ix2 (node t p) q := funext fun a => Fin.ext (by
    match a with
    | ⟨0, _⟩ => show win0_6.index t (0 : Fin 2) * 2000 + 1 * p.val = t.val * 2000 + p.val; rw [e0]; omega
    | ⟨1, _⟩ => show win0_6.index t (1 : Fin 2) * 128 + 1 * q.val = q.val; rw [e1]; omega)
  show hidden _ _ _ _ _ _ (ix2 p q) = hidden _ _ _ _ _ _ (((cfg0.win 6).blk t).view.emb (ix2 p q))
  rw [hemb]
  exact hidden_rows _ _ _ _ _ _ _ _ _ p (node t p) q (read_agg V c t p) (read_x V c t p) (read_s V c t p)

/-- An index of the result array is in point `t`'s block iff each coordinate is in the block's range. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v25).slice (win0_6.rect t)).set ↔ _
  rw [View.set_slice_whole, Rect.mem_set_unit]
  exact Iff.rfl

/-- The blocks tile the array: node `r`'s row is in the block of point `r / 2000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-- After the launch the result array is the hidden layer of the arrays the launch found. -/
theorem final (c : Dev nD) :
    (dat0 V c).arrAt 6 cfg0.N
      = hidden (V c main_v24 : Mat 50000 128) (V c main_v13 : Mat 50000 128) (V c main_v12 : Mat 50000 1)
          (V c main_arg2 : Mat 128 128) (V c main_arg3 : Mat 128 128) (row (V c main_arg4 : Row 128)) :=
  (dat0 V c).arrAt_eq_of_cover 6 _ (fun t _ => flushed_eq V c t) cover

end Cert.Sage.Region0

end
-- ==== Proof.Region1.lean ====
/-
  The second launch: the output layer and the linear head of every node, block by block.

  As in the first launch the grid has 25 points and point `t` works on the nodes `2000 t … 2000 t + 1999`: it is handed
  those rows of the aggregate of the hidden features, of the hidden features and of the reciprocal column, and the whole
  of the two weight arrays, the bias, the head's weights and the head's bias, and writes back those rows of the
  one-column result.  A row of the result depends on the same row of the three row-indexed operands only, so point `t`
  writes block `t` of the layer of the WHOLE arrays, and the 25 blocks tile the 50000 rows.
-/
import proofs.«123700_j62861141344333_2_alg».proof.Proof.Gen.KernelIdeal.Frame
import proofs.«123700_j62861141344333_2_alg».proof.Proof.Payload

set_option maxRecDepth 16384

noncomputable section

namespace Cert.Sage.Region1

open Idealize.ShloMosaic Idealize.ShloMosaic.TcCoe Idealize.ShloMosaic.ValueIdx Idealize.SL.Sem
open Idealize.ShloMosaic.Pipeline (Dat Cfg Window)
open Cert.Dense Cert.RowScale Cert.BiasRow Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-indexed inputs and the output sit at block row `t`, the weights, the
    biases and the head at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- Every block row is some point's. -/
theorem idx_onto : ∀ q0 : Fin 25, ∃ t : Fin cfg1.N, win1_8.index t = ![q0.val, 0] :=
  (by decide +kernel : ∀ q0 : Fin 25, ∃ t : Fin grid1.N, win1_8.index t = ![q0.val, 0])

/-- The node whose row is row `p` of point `t`'s blocks. -/
def node (t : Fin cfg1.N) (p : Fin 2000) : Fin 50000 :=
  ⟨t.val * 2000 + p.val, by
    have h := t.isLt
    have hN : cfg1.N = 25 := N_1
    have hp := p.isLt
    omega⟩

theorem read_agg (c : Dev nD) (t : Fin cfg1.N) (p : Fin 2000) (k : Fin 128) :
    iblk1 V c 0 t (ix2 p k) = (V c main_v36 : Mat 50000 128) (ix2 (node t p) k) := by
  obtain ⟨e0, e1, -⟩ := idx_facts t
  show V c (Pipeline.arrRef spec1 0) (((cfg1.win 0).blk t).view.emb (ix2 p k)) = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

theorem read_h (c : Dev nD) (t : Fin cfg1.N) (p : Fin 2000) (k : Fin 128) :
    iblk1 V c 1 t (ix2 p k) = (V c main_v25 : Mat 50000 128) (ix2 (node t p) k) := by
  obtain ⟨-, -, e0, e1, -⟩ := idx_facts t
  show V c (Pipeline.arrRef spec1 1) (((cfg1.win 1).blk t).view.emb (ix2 p k)) = _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

theorem read_s (c : Dev nD) (t : Fin cfg1.N) (p : Fin 2000) :
    iblk1 V c 2 t (ix2 p (0 : Fin 1)) = (V c main_v12 : Mat 50000 1) (ix2 (node t p) (0 : Fin 1)) := by
  obtain ⟨-, -, -, -, e0, e1, -⟩ := idx_facts t
  show V c (Pipeline.arrRef spec1 2) (((cfg1.win 2).blk t).view.emb (ix2 p (0 : Fin 1))) = _
  refine congrArg _ (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 1 + 1 * 0 = 0; rw [e1]

theorem whole_wl (c : Dev nD) (t : Fin cfg1.N) : iblk1 V c 3 t = (V c main_arg5 : Mat 128 128) := by
  obtain ⟨-, -, -, -, -, -, e0, e1, -⟩ := idx_facts t
  funext j
  show V c (Pipeline.arrRef spec1 3) (((cfg1.win 3).blk t).view.emb j) = V c main_arg5 j
  refine congrArg _ (funext fun a => Fin.ext ?_)
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

theorem whole_wr (c : Dev nD) (t : Fin cfg1.N) : iblk1 V c 4 t = (V c main_arg6 : Mat 128 128) := by
  obtain ⟨-, -, -, -, -, -, -, -, e0, e1, -⟩ := idx_facts t
  funext j
  show V c (Pipeline.arrRef spec1 4) (((cfg1.win 4).blk t).view.emb j) = V c main_arg6 j
  refine congrArg _ (funext fun a => Fin.ext ?_)
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

theorem whole_b (c : Dev nD) (t : Fin cfg1.N) : iblk1 V c 5 t = (V c main_arg7 : Row 128) := by
  obtain ⟨-, -, -, -, -, -, -, -, -, -, e0, -⟩ := idx_facts t
  funext j
  show V c (Pipeline.arrRef spec1 5) (((cfg1.win 5).blk t).view.emb j) = V c main_arg7 j
  refine congrArg _ (funext fun a => Fin.ext ?_)
  match a with
  | ⟨0, _⟩ => show win1_5.index t (0 : Fin 1) * 128 + 1 * (j 0).val = (j 0).val; rw [e0]; omega

theorem whole_wfc (c : Dev nD) (t : Fin cfg1.N) : iblk1 V c 6 t = (V c main_arg8 : Mat 128 1) := by
  obtain ⟨-, -, -, -, -, -, -, -, -, -, -, e0, e1, -⟩ := idx_facts t
  funext j
  show V c (Pipeline.arrRef spec1 6) (((cfg1.win 6).blk t).view.emb j) = V c main_arg8 j
  refine congrArg _ (funext fun a => Fin.ext ?_)
  match a with
  | ⟨0, _⟩ => show win1_6.index t (0 : Fin 2) * 128 + 1 * (j 0).val = (j 0).val; rw [e0]; omega
  | ⟨1, _⟩ => show win1_6.index t (1 : Fin 2) * 1 + 1 * (j 1).val = (j 1).val; rw [e1]; omega

theorem whole_bfc (c : Dev nD) (t : Fin cfg1.N) : iblk1 V c 7 t = (V c main_arg9 : Row 1) := by
  obtain ⟨-, -, -, -, -, -, -, -, -, -, -, -, -, e0, -⟩ := idx_facts t
  funext j
  show V c (Pipeline.arrRef spec1 7) (((cfg1.win 7).blk t).view.emb j) = V c main_arg9 j
  refine congrArg _ (funext fun a => Fin.ext ?_)
  match a with
  | ⟨0, _⟩ => show win1_7.index t (0 : Fin 1) * 1 + 1 * (j 0).val = (j 0).val; rw [e0]; omega

/-- What point `t` writes back is block `t` of the output layer and head of the arrays as the launch finds them. -/
theorem flushed_eq (c : Dev nD) (t : Fin cfg1.N) :
    (dat1 V c).flushed 8 t = ((cfg1.win 8).blk t).view.read (Elt Ideal)
      (head (V c main_v36 : Mat 50000 128) (V c main_v25 : Mat 50000 128) (V c main_v12 : Mat 50000 1)
        (V c main_arg5 : Mat 128 128) (V c main_arg6 : Mat 128 128) (row (V c main_arg7 : Row 128))
        (V c main_arg8 : Mat 128 1) (row (V c main_arg9 : Row 1))) := by
  show (cfg1.win 8).cut (grid1.coords t) ((dat1 V c).after 8 t) = _
  rw [after1_8]
  unfold out1_8
  rw [View.canon_unit_zero hz2]
  simp only [View.ld_unit_zero (S := S2000x128) hz2, View.ld_unit_zero (S := S2000x1) hz2,
    View.ld_unit_zero (S := S128x128) hz2, View.ld_unit_zero (S := S128) hz1,
    View.ld_unit_zero (S := S128x1) hz2, View.ld_unit_zero (S := S1) hz1]
  rw [pay1_eq, whole_wl V c t, whole_wr V c t, whole_b V c t, whole_wfc V c t, whole_bfc V c t]
  funext j
  obtain ⟨p, q, rfl⟩ : ∃ (p : Fin 2000) (q : Fin 1), j = ix2 p q := ⟨j 0, j 1, eq_ix2 j⟩
  obtain ⟨-, -, -, -, -, -, -, -, -, -, -, -, -, -, e0, e1⟩ := idx_facts t
  have hemb : ((cfg1.win 8).blk t).view.emb (ix2 p q) = ix2 (node t p) q := funext fun a => Fin.ext (by
    match a with
    | ⟨0, _⟩ => show win1_8.index t (0 : Fin 2) * 2000 + 1 * p.val = t.val * 2000 + p.val; rw [e0]; omega
    | ⟨1, _⟩ => show win1_8.index t (1 : Fin 2) * 1 + 1 * q.val = q.val; rw [e1]; omega)
  show head _ _ _ _ _ _ _ _ (ix2 p q) = head _ _ _ _ _ _ _ _ (((cfg1.win 8).blk t).view.emb (ix2 p q))
  rw [hemb]
  exact head_rows _ _ _ _ _ _ _ _ _ _ _ p (node t p) q (read_agg V c t p) (read_h V c t p) (read_s V c t p)

theorem mem_blk (t : Fin cfg1.N) (i : S50000x1.Idx) :
    i ∈ ((cfg1.win 8).blk t).view.set ↔ ∀ a : Fin 2, win1_8.index t a * S2000x1.size a ≤ (i a).val
      ∧ (i a).val < win1_8.index t a * S2000x1.size a + S2000x1.size a := by
  show i ∈ ((View.whole main_v37).slice (win1_8.rect t)).set ↔ _
  rw [View.set_slice_whole, Rect.mem_set_unit]
  exact Iff.rfl

/-- The blocks tile the array: node `r`'s row is in the block of point `r / 2000`. -/
theorem cover (i : S50000x1.Idx) :
    ∃ t : Fin cfg1.N, (cfg1.win 8).flush t = true ∧ i ∈ ((cfg1.win 8).blk t).view.set := by
  have hi0 : (i 0).val < 50000 := (i 0).isLt
  have hi1 : (i 1).val < 1 := (i 1).isLt
  obtain ⟨t, ht⟩ := idx_onto ⟨(i 0).val / 2000, by omega⟩
  have q0 : win1_8.index t (0 : Fin 2) = (i 0).val / 2000 := congrFun ht 0
  have q1 : win1_8.index t (1 : Fin 2) = 0 := congrFun ht 1
  refine ⟨t, flush1_8 t, ?_⟩
  rw [mem_blk]
  intro a
  match a with
  | ⟨0, _⟩ =>
    show win1_8.index t (0 : Fin 2) * 2000 ≤ (i 0).val ∧ (i 0).val < win1_8.index t (0 : Fin 2) * 2000 + 2000
    omega
  | ⟨1, _⟩ =>
    show win1_8.index t (1 : Fin 2) * 1 ≤ (i 1).val ∧ (i 1).val < win1_8.index t (1 : Fin 2) * 1 + 1
    omega

/-- After the launch the result array is the output layer and head of the arrays the launch found. -/
theorem final (c : Dev nD) :
    (dat1 V c).arrAt 8 cfg1.N
      = head (V c main_v36 : Mat 50000 128) (V c main_v25 : Mat 50000 128) (V c main_v12 : Mat 50000 1)
          (V c main_arg5 : Mat 128 128) (V c main_arg6 : Mat 128 128) (row (V c main_arg7 : Row 128))
          (V c main_arg8 : Mat 128 1) (row (V c main_arg9 : Row 1)) :=
  (dat1 V c).arrAt_eq_of_cover 8 _ (fun t _ => flushed_eq V c t) cover

end Cert.Sage.Region1

end
-- ==== Proof.KernelValue.lean ====
/-
  The idealized kernel's result is the network of the model.

  The first launch leaves the hidden layer of what it found: the aggregate of the features, the features and the
  reciprocal column, that is, the model's hidden features.  The second launch leaves the output layer and head of what
  it found: the aggregate of those hidden features, the hidden features and the same reciprocal column.  The last host
  operation reads that column as a vector: the model's network of the arguments.
-/
import proofs.«123700_j62861141344333_2_alg».proof.Proof.KernelRun
import proofs.«123700_j62861141344333_2_alg».proof.Proof.HostStretch
import proofs.«123700_j62861141344333_2_alg».proof.Proof.Region0
import proofs.«123700_j62861141344333_2_alg».proof.Proof.Region1

set_option maxRecDepth 16384

noncomputable section

namespace Cert.Sage.KernelValue

open Idealize.ShloMosaic Idealize.ShloMosaic.TcCoe Idealize.ShloMosaic.ValueIdx Idealize.SL.Sem
open Cert.Dense Cert.RowScale Cert.BiasRow Cert.KernelIdeal Cert.KernelIdeal.Gen Cert.Sage.Stretch

variable (m : (ℓ : Loc nD τ sig) → Buf (Elt Ideal) ℓ) (ρ : Dev nD → PrngReg) (c : Dev nD)

/-- After the first launch its result array holds the model's hidden features. -/
theorem hidden_features : (W2 m ρ c (Proc.devRef .tc main_v25) : Mat 50000 128)
    = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h : W2 m ρ c (Proc.devRef .tc main_v25) = (dat0 (V1 m ρ) c).arrAt 6 cfg0.N := W2_arr m ρ c 6
  rw [h, Region0.final (V1 m ρ) c, V1_agg, V1_x, V1_arg2, V1_arg3, V1_arg4]
  have hr : (V1 m ρ c main_v12 : Mat 50000 1) = recip (m ((c.tc : Thread nD τ).loc main_arg1)) := W1_recip m ρ c
  rw [hr]
  rfl

/-- After the second launch its result array holds the model's output column. -/
theorem output_column : (W4 m ρ c (Proc.devRef .tc main_v37) : Mat 50000 1)
    = head (aggregate (m ((c.tc : Thread nD τ).loc main_arg1)) (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
        (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (recip (m ((c.tc : Thread nD τ).loc main_arg1)))
        (m ((c.tc : Thread nD τ).loc main_arg5)) (m ((c.tc : Thread nD τ).loc main_arg6)) (row (m ((c.tc : Thread nD τ).loc main_arg7))) (m ((c.tc : Thread nD τ).loc main_arg8)) (row (m ((c.tc : Thread nD τ).loc main_arg9))) := by
  have h : W4 m ρ c (Proc.devRef .tc main_v37) = (dat1 (V3 m ρ) c).arrAt 8 cfg1.N := W4_arr m ρ c 8
  rw [h, Region1.final (V3 m ρ) c, V3_agg, V3_h, V3_recip, V3_arg5, V3_arg6, V3_arg7, V3_arg8, V3_arg9, hidden_features]

/-- The result buffer's last contents are the network of the arguments. -/
theorem result : W5 m ρ c (Proc.devRef .tc main_v38)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W5_result, output_column]
  rfl

/-- Every weakly fair execution of the idealized kernel terminates with the network of the arguments in its result
    buffer and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v38)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ c), (h c).2⟩) (KernelRun.run_named m ρ)

end Cert.Sage.KernelValue

end
-- ==== Proof.RefValue.lean ====
/-
  The reference's result is the network of the model.

  The reference computes, per layer, the aggregate divided by the clamped degree (broadcast to a column and along the
  rows), two plain dot products, a sum, a bias row broadcast and added, and for the hidden layer a maximum with zero.
  Its composed term is named here stage by stage in that host spelling; each stage is then the model's: the dot
  products are matrix products, the broadcast biases are one-row additions, the division by the clamped degree is the
  scaling by the reciprocal column (the degree is never zero), and the gathers, scatters and index arithmetic are the
  same operations as the model's.
-/
import proofs.«123700_j62861141344333_2_alg».proof.Proof.Gen.ReferenceIdeal.Run
import proofs.«123700_j62861141344333_2_alg».proof.Proof.Model

set_option maxRecDepth 16384

noncomputable section

namespace Cert.Sage.Ref

open Idealize.ShloMosaic Idealize.ShloMosaic.TcCoe Idealize.ShloMosaic.ValueIdx Idealize.SL.Sem
open Cert.Dense Cert.RowScale Cert.BiasRow Cert.Sage
open Cert.ReferenceIdeal Cert.ReferenceIdeal.Gen

abbrev REdges : Type := (⟨S2x800000, .i32⟩ : BufTy).Contents (Elt Ideal)

/-- The reference's edge rows, index columns, degree, aggregate and layers, in its own host spelling. -/
def rRow0 (ei : REdges) : (⟨S800000, .i32⟩ : BufTy).Contents (Elt Ideal) :=
  shapeCast _ (extractStridedSlice S1x800000 ![0, 0] ei slices_S2x800000_S1x800000_0_0) shapeCasts_S1x800000_S800000
def rRow1 (ei : REdges) : (⟨S800000, .i32⟩ : BufTy).Contents (Elt Ideal) :=
  shapeCast _ (extractStridedSlice S1x800000 ![1, 0] ei slices_S2x800000_S1x800000_1_0) shapeCasts_S1x800000_S800000
def rSrc (ei : REdges) : (⟨S800000x1, .i32⟩ : BufTy).Contents (Elt Ideal) :=
  broadcastInDim S800000x1 ![0] bcast_S800000_S800000x1_0
    (select (cmpi .slt (rRow0 ei) (broadcastInDim S800000 ![] bcast_S_S800000 (constantI S_ 32 0#32)))
      (addi (rRow0 ei) (broadcastInDim S800000 ![] bcast_S_S800000 (constantI S_ 32 50000#32))) (rRow0 ei))
def rDst (ei : REdges) : (⟨S800000x1, .i32⟩ : BufTy).Contents (Elt Ideal) :=
  broadcastInDim S800000x1 ![0] bcast_S800000_S800000x1_0 (rRow1 ei)
def rOne : FVec Ideal S50000 .f32 := broadcastInDim S50000 ![] bcast_S_S50000 (constant (F := Ideal) S_ .f32 0x3F800000#32)
def rDeg (ei : REdges) : FVec Ideal S50000 .f32 :=
  maximumf
    (Host.scatterAdd (F := Ideal) scatter_S50000_S800000x1_S800000_n_0_0_1
      (broadcastInDim S50000 ![] bcast_S_S50000 (constant (F := Ideal) S_ .f32 0x00000000#32)) (rDst ei)
      (broadcastInDim S800000 ![] bcast_S_S800000 (constant (F := Ideal) S_ .f32 0x3F800000#32)))
    rOne
def rAgg (ei : REdges) (X : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (rDst ei)
    (Host.gather gather_S50000x128_S800000x1_S800000x128_1_0_n_n_0_1_1128 X (rSrc ei))
/-- A layer before its bias: the mean aggregate's product plus the self term's. -/
def rPre (ei : REdges) (X : FVec Ideal S50000x128 .f32) (wl wr : FVec Ideal S128x128 .f32) : FVec Ideal S50000x128 .f32 :=
  addf
    (Host.dotGeneral (F := Ideal) dot_S50000x128_S128x128_S50000x128_1_0_0_1_n_n none
      (Host.divf (F := Ideal) (rAgg ei X)
        (broadcastInDim S50000x128 ![0, 1] bcast_S50000x1_S50000x128_0_1 (broadcastInDim S50000x1 ![0] bcast_S50000_S50000x1_0 (rDeg ei))))
      wl)
    (Host.dotGeneral (F := Ideal) dot_S50000x128_S128x128_S50000x128_1_0_0_1_n_n none X wr)
def rHid (x : FVec Ideal S50000x128 .f32) (ei : REdges) (wl wr : FVec Ideal S128x128 .f32) (b : FVec Ideal S128 .f32) :
    FVec Ideal S50000x128 .f32 :=
  maximumf
    (addf (rPre ei x wl wr)
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))
def rNet (x : FVec Ideal S50000x128 .f32) (ei : REdges) (wl0 wr0 : FVec Ideal S128x128 .f32) (b0 : FVec Ideal S128 .f32)
    (wl1 wr1 : FVec Ideal S128x128 .f32) (b1 : FVec Ideal S128 .f32) (wfc : FVec Ideal S128x1 .f32) (bfc : FVec Ideal S1 .f32) :
    FVec Ideal S50000 .f32 :=
  shapeCast _
    (addf
      (Host.dotGeneral (F := Ideal) dot_S50000x128_S128x1_S50000x1_1_0_0_1_n_n none
        (addf (rPre ei (rHid x ei wl0 wr0 b0) wl1 wr1)
          (broadcastInDim S50000x128 ![0, 1] bcast_S1x128_S50000x128_0_1 (broadcastInDim S1x128 ![1] bcast_S128_S1x128_1 b1)))
        wfc)
      (broadcastInDim S50000x1 ![0, 1] bcast_S1x1_S50000x1_0_1 (broadcastInDim S1x1 ![1] bcast_S1_S1x1_1 bfc)))
    shapeCasts_S50000x1_S50000

/-- The reference run's composed term is that spelling of the network. -/
theorem res_eq_rNet (m : (ℓ : Loc nD τ sig) → Buf (Elt Ideal) ℓ) (c : Dev nD) :
    Cert.ReferenceIdeal.Value.res_main_v59 (F := Ideal) m c
      = rNet (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := rfl

/-! ### Each stage is the model's -/

theorem rSrc_eq (ei : REdges) : rSrc ei = srcCol ei := rfl
theorem rDst_eq (ei : REdges) : rDst ei = dstCol ei := rfl
theorem rDeg_eq (ei : REdges) : rDeg ei = degree ei := rfl
theorem rAgg_eq (ei : REdges) (X : FVec Ideal S50000x128 .f32) : rAgg ei X = aggregate ei X := rfl

theorem rOne_apply (i : S50000.Idx) : rOne i = 1 := by
  unfold rOne
  rw [broadcastInDim_scalar_apply]
  exact Ideal.ofBits_one_f32

theorem rPre_eq (ei : REdges) (X : FVec Ideal S50000x128 .f32) (wl wr : FVec Ideal S128x128 .f32) :
    rPre ei X wl wr = pre (aggregate ei X) X (recip ei) wl wr := by
  unfold rPre
  rw [hostDivRows (rAgg ei X) (rDeg ei) rOne bcast_S50000_S50000x1_0 bcast_S50000x1_S50000x128_0_1
      (fun i => by rw [rDeg_eq]; exact degree_ne_zero ei i) rOne_apply,
    hostDot_eq_mm _ rfl rfl rfl rfl rfl rfl, hostDot_eq_mm _ rfl rfl rfl rfl rfl rfl, rAgg_eq]
  rfl

theorem rHid_eq (x : FVec Ideal S50000x128 .f32) (ei : REdges) (wl wr : FVec Ideal S128x128 .f32) (b : FVec Ideal S128 .f32) :
    rHid x ei wl wr b = hid x ei wl wr b := by
  unfold rHid
  rw [hostReluBias, rPre_eq]
  rfl

theorem rNet_eq (x : FVec Ideal S50000x128 .f32) (ei : REdges) (wl0 wr0 : FVec Ideal S128x128 .f32) (b0 : FVec Ideal S128 .f32)
    (wl1 wr1 : FVec Ideal S128x128 .f32) (b1 : FVec Ideal S128 .f32) (wfc : FVec Ideal S128x1 .f32) (bfc : FVec Ideal S1 .f32) :
    rNet x ei wl0 wr0 b0 wl1 wr1 b1 wfc bfc = net x ei wl0 wr0 b0 wl1 wr1 b1 wfc bfc := by
  unfold rNet
  rw [hostAddRow, hostAddRow, hostDot_eq_mm _ rfl rfl rfl rfl rfl rfl, rPre_eq, rHid_eq]
  rfl

/-- The reference's result is the network of the arguments. -/
theorem res_eq (m : (ℓ : Loc nD τ sig) → Buf (Elt Ideal) ℓ) (c : Dev nD) :
    Cert.ReferenceIdeal.Value.res_main_v59 (F := Ideal) m c
      = net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) :=
  (res_eq_rNet m c).trans (rNet_eq _ _ _ _ _ _ _ _ _ _)

end Cert.Sage.Ref

end
-- ==== Proof.lean ====
/-
  A two-layer mean-aggregating graph network with a linear head: the tiled kernel against the plain reference, equal on
  the extended reals.

  Both programs slice the edge list into source and destination rows, count every node's in-degree and clamp it below
  by one, sum into every node the feature rows of its in-neighbours, and apply per layer
  `(mean aggregate) · wl + (own features) · wr + bias`, rectified after the first layer, followed by the head
  `· wfc + bfc`.  The reference forms the mean by dividing the aggregate by the clamped degree; the kernel multiplies it,
  inside its two launches, by the reciprocal of the clamped degree computed once on the host.  On the extended reals
  `a / c = a · c⁻¹` and `1 / c = c⁻¹` for every `c ≠ 0`, and a clamped degree is at least one, so the two means agree at
  every extended real, infinite ones included: the precondition is not needed for the values.  The kernel's launches
  work on 25 blocks of 2000 nodes; every row of a layer depends on the same row of its row-indexed operands only, so
  the blocks are the blocks of the layer of the whole arrays and tile it.  The changes of float format are the
  identity on the extended reals, and the matrix unit's product into a zero accumulator is the host's dot product.

  The three frames are the generated ones (the reference's from its generated run); the idealization rewrote nothing,
  so `preserves` is trivial; `algebraic` puts the kernel's run (Proof/KernelValue.lean) beside the reference's run
  (Proof/RefValue.lean), both ending at the model's network (Proof/Model.lean) of the arguments.
-/
import proofs.«123700_j62861141344333_2_alg».proof.Defs
import proofs.«123700_j62861141344333_2_alg».proof.Proof.Gen.Kernel
import proofs.«123700_j62861141344333_2_alg».proof.Proof.Gen.Kernel.Frame
import proofs.«123700_j62861141344333_2_alg».proof.Proof.Gen.KernelIdeal
import proofs.«123700_j62861141344333_2_alg».proof.Proof.Gen.KernelIdeal.Frame
import proofs.«123700_j62861141344333_2_alg».proof.Proof.Gen.ReferenceIdeal
import proofs.«123700_j62861141344333_2_alg».proof.Proof.Gen.ReferenceIdeal.Run
import proofs.«123700_j62861141344333_2_alg».proof.Proof.Gen.Pre_finite_inputs
import proofs.«123700_j62861141344333_2_alg».proof.Proof.KernelValue
import proofs.«123700_j62861141344333_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end at the network of the arguments; the arguments agree. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.Sage.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.Sage.Ref.res_eq m' c, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
